-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S8192x256 : Shape := ⟨2, ![8192, 256]⟩
abbrev S64x2 : Shape := ⟨2, ![64, 2]⟩
abbrev S256x512 : Shape := ⟨2, ![256, 512]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S512x256 .f32) (main_arg1 : FVec F S8192x256 .f32) (main_arg2 : IVec S64x2 32) (main_arg3 : FVec F S256x512 .f32) (main_arg4 : FVec F S256 .f32) (main_arg5 : FVec F S2x256 .f32) (main_arg6 : FVec F S2 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S512x256 : Shape := ⟨2, ![512, 256]⟩
abbrev S8192x256 : Shape := ⟨2, ![8192, 256]⟩
abbrev S64x2 : Shape := ⟨2, ![64, 2]⟩
abbrev S256x512 : Shape := ⟨2, ![256, 512]⟩
abbrev S256 : Shape := ⟨1, ![256]⟩
abbrev S2x256 : Shape := ⟨2, ![2, 256]⟩
abbrev S2 : Shape := ⟨1, ![2]⟩
abbrev S64x1 : Shape := ⟨2, ![64, 1]⟩
abbrev S64 : Shape := ⟨1, ![64]⟩
abbrev S_ : Shape := ⟨0, ![]⟩
abbrev S64x256 : Shape := ⟨2, ![64, 256]⟩
abbrev S256x256 : Shape := ⟨2, ![256, 256]⟩
abbrev S256x2 : Shape := ⟨2, ![256, 2]⟩
abbrev S1x256 : Shape := ⟨2, ![1, 256]⟩
abbrev S1x2 : Shape := ⟨2, ![1, 2]⟩
abbrev S64x8192 : Shape := ⟨2, ![64, 8192]⟩
abbrev S128x256 : Shape := ⟨2, ![128, 256]⟩
abbrev S64x128 : Shape := ⟨2, ![64, 128]⟩
abbrev S1x128x256 : Shape := ⟨3, ![1, 128, 256]⟩
abbrev S64x1x256 : Shape := ⟨3, ![64, 1, 256]⟩
abbrev S64x128x256 : Shape := ⟨3, ![64, 128, 256]⟩
abbrev S8192x2 : Shape := ⟨2, ![8192, 2]⟩
abbrev S64x128x2 : Shape := ⟨3, ![64, 128, 2]⟩
abbrev S64x128x1 : Shape := ⟨3, ![64, 128, 1]⟩

abbrev nBuf : Space → Nat
  | .hbm => 27
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S8192x256, .f32⟩
  | .hbm, ⟨2, _⟩ => ⟨S64x2, .i32⟩
  | .hbm, ⟨3, _⟩ => ⟨S256x512, .f32⟩
  | .hbm, ⟨4, _⟩ => ⟨S256, .f32⟩
  | .hbm, ⟨5, _⟩ => ⟨S2x256, .f32⟩
  | .hbm, ⟨6, _⟩ => ⟨S2, .f32⟩
  | .hbm, ⟨7, _⟩ => ⟨S64x1, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x2, .f32⟩
  | .hbm, ⟨23, _⟩ => ⟨S1x256, .f32⟩
  | .hbm, ⟨24, _⟩ => ⟨S1x2, .f32⟩
  | .hbm, ⟨25, _⟩ => ⟨S64x8192, .f32⟩
  | .hbm, ⟨26, _⟩ => ⟨S64x8192, .f32⟩
  | .local _ .vmem, ⟨0, _⟩ => ⟨S128x256, .f32⟩
  | .local _ .vmem, ⟨1, _⟩ => ⟨S128x256, .f32⟩
  | .local _ .vmem, ⟨2, _⟩ => ⟨S256x256, .f32⟩
  | .local _ .vmem, ⟨3, _⟩ => ⟨S64x256, .f32⟩
  | .local _ .vmem, ⟨4, _⟩ => ⟨S256x256, .f32⟩
  | .local _ .vmem, ⟨5, _⟩ => ⟨S1x256, .f32⟩
  | .local _ .vmem, ⟨6, _⟩ => ⟨S256x2, .f32⟩
  | .local _ .vmem, ⟨7, _⟩ => ⟨S1x2, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S2x256_S256x2_1_0 : S2x256.Transposes [1, 0] S256x2
  shapeCasts_S256_S1x256 : S256.ShapeCasts S1x256
  shapeCasts_S2_S1x2 : S2.ShapeCasts S1x2
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  shapeCasts_S128x256_S1x128x256 : S128x256.ShapeCasts S1x128x256
  shapeCasts_S64x256_S64x1x256 : S64x256.ShapeCasts S64x1x256
  broadcasts_S1x128x256_S64x128x256 : S1x128x256.Broadcasts S64x128x256
  broadcasts_S64x1x256_S64x128x256 : S64x1x256.Broadcasts S64x128x256
  shapeCasts_S64x128x256_S8192x256 : S64x128x256.ShapeCasts S8192x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  shapeCasts_S8192x2_S64x128x2 : S8192x2.ShapeCasts S64x128x2
  slices_S64x128x2_o0_0_0_S64x128x1 : S64x128x2.Slices ![0, 0, 0] S64x128x1
  shapeCasts_S64x128x1_S64x128 : S64x128x1.ShapeCasts S64x128
  inb_S64x128_S64x128_0_0 : ∀ a, (![0, 0] : Fin 2 → Nat) a + S64x128.size a ≤ S64x128.size a
  h_S64x128 : 0 < S64x128.numel
  slices_S64x128x2_o0_0_1_S64x128x1 : S64x128x2.Slices ![0, 0, 1] S64x128x1
  gather_S512x256_S64x1_S64x256_1_0_n_n_0_1_1256_wf : GatherDims.WF S512x256 S64x1 S64x256 [1] [0] [] [0] [] 1 ![1, 256]
  dot_S128x256_S256x256_S128x256_1_0_0_1_n_n_wf : DotDims.WF S128x256 S256x256 S128x256 [1] [0] [0] [1] [] []
  dot_S64x256_S256x256_S64x256_1_0_0_1_n_n_wf : DotDims.WF S64x256 S256x256 S64x256 [1] [0] [0] [1] [] []
  dot_S8192x256_S256x2_S8192x2_1_0_0_1_n_n_wf : DotDims.WF S8192x256 S256x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x8192.size a
  hwx0_7 : ∀ i : grid0.Coords, EltTy.bits .f32 = 32 ∨ (Rect.block (s := S64x8192) S64x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x8192.size a
  hwx0_8 : ∀ i : grid0.Coords, EltTy.bits .f32 = 32 ∨ (Rect.block (s := S64x8192) S64x128.size (cc0_transform_8 i) (hinb0_8 i)).WholeWords (EltTy.packing .f32)

variable [Facts₀]

def gather_S512x256_S64x1_S64x256_1_0_n_n_0_1_1256 : GatherDims S512x256 S64x1 S64x256 where
  offsetDims := [1]
  collapsedSliceDims := [0]
  operandBatchingDims := []
  startIndicesBatchingDims := []
  startIndexMap := [0]
  indexVectorDim := 1
  sliceSizes := ![1, 256]
  wf := gather_S512x256_S64x1_S64x256_1_0_n_n_0_1_1256_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf

abbrev win0_0 : Pipeline.Window sig grid0 :=
  Pipeline.Window.ofSpec (Memref.whole main_arg1) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S64x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x256 : Shape := ⟨2, ![512, 256]⟩
abbrev S8192x256 : Shape := ⟨2, ![8192, 256]⟩
abbrev S64x2 : Shape := ⟨2, ![64, 2]⟩
abbrev S256x512 : Shape := ⟨2, ![256, 512]⟩
abbrev S256 : Shape := ⟨1, ![256]⟩
abbrev S2x256 : Shape := ⟨2, ![2, 256]⟩
abbrev S2 : Shape := ⟨1, ![2]⟩
abbrev S64x1 : Shape := ⟨2, ![64, 1]⟩
abbrev S64 : Shape := ⟨1, ![64]⟩
abbrev S_ : Shape := ⟨0, ![]⟩
abbrev S64x256 : Shape := ⟨2, ![64, 256]⟩
abbrev S1x8192x256 : Shape := ⟨3, ![1, 8192, 256]⟩
abbrev S64x8192x256 : Shape := ⟨3, ![64, 8192, 256]⟩
abbrev S64x1x256 : Shape := ⟨3, ![64, 1, 256]⟩
abbrev S64x8192x512 : Shape := ⟨3, ![64, 8192, 512]⟩
abbrev S1x1x256 : Shape := ⟨3, ![1, 1, 256]⟩
abbrev S64x8192x2 : Shape := ⟨3, ![64, 8192, 2]⟩
abbrev S1x1x2 : Shape := ⟨3, ![1, 1, 2]⟩
abbrev S64x8192x1 : Shape := ⟨3, ![64, 8192, 1]⟩
abbrev S64x8192 : Shape := ⟨2, ![64, 8192]⟩

abbrev nBuf : Space → Nat
  | .hbm => 46
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S8192x256, .f32⟩
  | .hbm, ⟨2, _⟩ => ⟨S64x2, .i32⟩
  | .hbm, ⟨3, _⟩ => ⟨S256x512, .f32⟩
  | .hbm, ⟨4, _⟩ => ⟨S256, .f32⟩
  | .hbm, ⟨5, _⟩ => ⟨S2x256, .f32⟩
  | .hbm, ⟨6, _⟩ => ⟨S2, .f32⟩
  | .hbm, ⟨7, _⟩ => ⟨S64x1, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x256, .f32⟩
  | .hbm, ⟨18, _⟩ => ⟨S1x8192x256, .f32⟩
  | .hbm, ⟨19, _⟩ => ⟨S64x8192x256, .f32⟩
  | .hbm, ⟨20, _⟩ => ⟨S64x1x256, .f32⟩
  | .hbm, ⟨21, _⟩ => ⟨S64x8192x256, .f32⟩
  | .hbm, ⟨22, _⟩ => ⟨S64x8192x512, .f32⟩
  | .hbm, ⟨23, _⟩ => ⟨S64x8192x256, .f32⟩
  | .hbm, ⟨24, _⟩ => ⟨S1x1x256, .f32⟩
  | .hbm, ⟨25, _⟩ => ⟨S64x8192x256, .f32⟩
  | .hbm, ⟨26, _⟩ => ⟨S64x8192x256, .f32⟩
  | .hbm, ⟨27, _⟩ => ⟨S_, .f32⟩
  | .hbm, ⟨28, _⟩ => ⟨S64x8192x256, .f32⟩
  | .hbm, ⟨29, _⟩ => ⟨S64x8192x256, .f32⟩
  | .hbm, ⟨30, _⟩ => ⟨S64x8192x2, .f32⟩
  | .hbm, ⟨31, _⟩ => ⟨S1x1x2, .f32⟩
  | .hbm, ⟨32, _⟩ => ⟨S64x8192x2, .f32⟩
  | .hbm, ⟨33, _⟩ => ⟨S64x8192x2, .f32⟩
  | .hbm, ⟨34, _⟩ => ⟨S64x8192x1, .f32⟩
  | .hbm, ⟨35, _⟩ => ⟨S64x8192, .f32⟩
  | .hbm, ⟨36, _⟩ => ⟨S64x8192x1, .f32⟩
  | .hbm, ⟨37, _⟩ => ⟨S64x8192, .f32⟩
  | .hbm, ⟨38, _⟩ => ⟨S64x8192, .f32⟩
  | .hbm, ⟨39, _⟩ => ⟨S64x8192, .f32⟩
  | .hbm, ⟨40, _⟩ => ⟨S_, .f32⟩
  | .hbm, ⟨41, _⟩ => ⟨S64x8192, .f32⟩
  | .hbm, ⟨42, _⟩ => ⟨S64x8192, .f32⟩
  | .hbm, ⟨43, _⟩ => ⟨S_, .f32⟩
  | .hbm, ⟨44, _⟩ => ⟨S64x8192, .f32⟩
  | .hbm, ⟨45, _⟩ => ⟨S64x8192, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S8192x256_S1x8192x256_1_2 : S8192x256.BroadcastsInDim S1x8192x256 (![1, 2] : Fin 2 → Fin S1x8192x256.rank)
  bcast_S1x8192x256_S64x8192x256_0_1_2 : S1x8192x256.BroadcastsInDim S64x8192x256 (![0, 1, 2] : Fin 3 → Fin S64x8192x256.rank)
  bcast_S64x256_S64x1x256_0_2 : S64x256.BroadcastsInDim S64x1x256 (![0, 2] : Fin 2 → Fin S64x1x256.rank)
  bcast_S64x1x256_S64x8192x256_0_1_2 : S64x1x256.BroadcastsInDim S64x8192x256 (![0, 1, 2] : Fin 3 → Fin S64x8192x256.rank)
  concatenates_S64x8192x256_S64x8192x256_S64x8192x512_d2 : Shape.Concatenates [S64x8192x256, S64x8192x256] S64x8192x512 2
  bcast_S256_S1x1x256_2 : S256.BroadcastsInDim S1x1x256 (![2] : Fin 1 → Fin S1x1x256.rank)
  bcast_S1x1x256_S64x8192x256_0_1_2 : S1x1x256.BroadcastsInDim S64x8192x256 (![0, 1, 2] : Fin 3 → Fin S64x8192x256.rank)
  bcast_S_S64x8192x256 : S_.BroadcastsInDim S64x8192x256 (![] : Fin 0 → Fin S64x8192x256.rank)
  bcast_S2_S1x1x2_2 : S2.BroadcastsInDim S1x1x2 (![2] : Fin 1 → Fin S1x1x2.rank)
  bcast_S1x1x2_S64x8192x2_0_1_2 : S1x1x2.BroadcastsInDim S64x8192x2 (![0, 1, 2] : Fin 3 → Fin S64x8192x2.rank)
  slices_S64x8192x2_S64x8192x1_0_0_0 : S64x8192x2.Slices ![0, 0, 0] S64x8192x1
  shapeCasts_S64x8192x1_S64x8192 : S64x8192x1.ShapeCasts S64x8192
  slices_S64x8192x2_S64x8192x1_0_0_1 : S64x8192x2.Slices ![0, 0, 1] S64x8192x1
  bcast_S_S64x8192 : S_.BroadcastsInDim S64x8192 (![] : Fin 0 → Fin S64x8192.rank)
  gather_S512x256_S64x1_S64x256_1_0_n_n_0_1_1256_wf : GatherDims.WF S512x256 S64x1 S64x256 [1] [0] [] [0] [] 1 ![1, 256]
  dot_S64x8192x512_S256x512_S64x8192x256_2_1_01_0_n_n_wf : DotDims.WF S64x8192x512 S256x512 S64x8192x256 [2] [1] [0, 1] [0] [] []
  dot_S64x8192x256_S2x256_S64x8192x2_2_1_01_0_n_n_wf : DotDims.WF S64x8192x256 S2x256 S64x8192x2 [2] [1] [0, 1] [0] [] []

variable [Facts₀]

def gather_S512x256_S64x1_S64x256_1_0_n_n_0_1_1256 : GatherDims S512x256 S64x1 S64x256 where
  offsetDims := [1]
  collapsedSliceDims := [0]
  operandBatchingDims := []
  startIndicesBatchingDims := []
  startIndexMap := [0]
  indexVectorDim := 1
  sliceSizes := ![1, 256]
  wf := gather_S512x256_S64x1_S64x256_1_0_n_n_0_1_1256_wf
def dot_S64x8192x512_S256x512_S64x8192x256_2_1_01_0_n_n : DotDims S64x8192x512 S256x512 S64x8192x256 where
  lhsContracting := [2]
  rhsContracting := [1]
  lhsNonContracting := [0, 1]
  rhsNonContracting := [0]
  lhsBatch := []
  rhsBatch := []
  wf := dot_S64x8192x512_S256x512_S64x8192x256_2_1_01_0_n_n_wf
def dot_S64x8192x256_S2x256_S64x8192x2_2_1_01_0_n_n : DotDims S64x8192x256 S2x256 S64x8192x2 where
  lhsContracting := [2]
  rhsContracting := [1]
  lhsNonContracting := [0, 1]
  rhsNonContracting := [0]
  lhsBatch := []
  rhsBatch := []
  wf := dot_S64x8192x256_S2x256_S64x8192x2_2_1_01_0_n_n_wf

class Facts : Prop extends Facts₀ where

variable [Facts]
-- ==== Proof.Spec.lean ====
import Idealize.ShloMosaic.PureOps.Ideal
import Idealize.ShloMosaic.Lib.ValueIdx

/-!
# The pair scorer as one function of the arrays it reads

For a vehicle row `vrow` and a track row `trow` (256 features each) the scorer is a two-layer perceptron on their
concatenation.  The first layer's weight `[256, 512]` acts on the track half and on the vehicle half separately, so the
hidden unit `k` is

  `relu ( Σ_i trow i · w1t (i, k)  +  ( Σ_i vrow i · w1v (i, k)  +  b1 (0, k) ) )`

with `w1t`, `w1v` the two halves of the weight, each transposed to `[256, 256]`, and the output unit `o` is

  `Σ_k hidden k · w2t (k, o)  +  b2 (0, o)`.

`logit` is that number on the extended reals; `scores` and `probs` are the two result arrays `[64, 8192]` (output unit 0,
and the logistic function of output unit 1) as functions of the seven arrays: the track features, the two weight halves,
the gathered vehicle rows, the two biases as one-row matrices and the second weight transposed.

The one law used to compare two arrangements of the first layer: a sum over 512 terms is the sum over its first 256
plus the sum over its last 256 (`sum_halves`), in any commutative monoid — so also on the extended reals, where
addition is associative and commutative although it is not cancellative.
-/

noncomputable section

open scoped BigOperators

namespace Cert.Spec

open Idealize.ShloMosaic Idealize.ShloMosaic.ValueIdx

/-- Position `i` of the first half of a 512-long axis. -/
def lo (i : Fin 256) : Fin 512 := ⟨i.val, by have := i.isLt; omega⟩
/-- Position `i` of the second half of a 512-long axis. -/
def hi (i : Fin 256) : Fin 512 := ⟨256 + i.val, by have := i.isLt; omega⟩

@[simp] theorem lo_val (i : Fin 256) : (lo i).val = i.val := rfl
@[simp] theorem hi_val (i : Fin 256) : (hi i).val = 256 + i.val := rfl

/-- A sum over 512 terms is the sum over the first 256 plus the sum over the last 256. -/
theorem sum_halves {M : Type*} [AddCommMonoid M] (f : Fin 512 → M) :
    ∑ q : Fin 512, f q = ∑ i : Fin 256, f (lo i) + ∑ i : Fin 256, f (hi i) := by
  have h := Fin.sum_univ_add (M := M) (a := 256) (b := 256) f
  rw [h]
  congr 1

/-- Zero, as the float word the programs compare against. -/
abbrev zeroF : EReal := Ideal.ofBits .f32 0x00000000#32

/-- Hidden unit `k` of the pair with track row `trow` and vehicle row `vrow`. -/
def hidden (trow : Fin 256 → EReal) (w1t : (⟨2, ![256, 256]⟩ : Shape).Idx → EReal)
    (vrow : Fin 256 → EReal) (w1v : (⟨2, ![256, 256]⟩ : Shape).Idx → EReal)
    (b1 : (⟨2, ![1, 256]⟩ : Shape).Idx → EReal) (k : Fin 256) : EReal :=
  max ((∑ i : Fin 256, trow i * w1t (ix2 i k)) + ((∑ i : Fin 256, vrow i * w1v (ix2 i k)) + b1 (ix2 (0 : Fin 1) k))) zeroF

/-- Output unit `o` of the pair. -/
def logit (trow : Fin 256 → EReal) (w1t : (⟨2, ![256, 256]⟩ : Shape).Idx → EReal)
    (vrow : Fin 256 → EReal) (w1v : (⟨2, ![256, 256]⟩ : Shape).Idx → EReal)
    (b1 : (⟨2, ![1, 256]⟩ : Shape).Idx → EReal) (w2t : (⟨2, ![256, 2]⟩ : Shape).Idx → EReal)
    (b2 : (⟨2, ![1, 2]⟩ : Shape).Idx → EReal) (o : Fin 2) : EReal :=
  (∑ k : Fin 256, hidden trow w1t vrow w1v b1 k * w2t (ix2 k o)) + b2 (ix2 (0 : Fin 1) o)

/-- Row `r` of a matrix with 256 columns. -/
abbrev rowOf {n : ℕ} (x : (⟨2, ![n, 256]⟩ : Shape).Idx → EReal) (r : Fin n) : Fin 256 → EReal := fun i => x (ix2 r i)

/-- The first result: output unit 0 of every (vehicle, track) pair. -/
def scores (xt : (⟨2, ![8192, 256]⟩ : Shape).Idx → EReal) (w1t : (⟨2, ![256, 256]⟩ : Shape).Idx → EReal)
    (veh : (⟨2, ![64, 256]⟩ : Shape).Idx → EReal) (w1v : (⟨2, ![256, 256]⟩ : Shape).Idx → EReal)
    (b1 : (⟨2, ![1, 256]⟩ : Shape).Idx → EReal) (w2t : (⟨2, ![256, 2]⟩ : Shape).Idx → EReal)
    (b2 : (⟨2, ![1, 2]⟩ : Shape).Idx → EReal) : (⟨2, ![64, 8192]⟩ : Shape).Idx → EReal :=
  fun i => logit (rowOf xt (i 1)) w1t (rowOf veh (i 0)) w1v b1 w2t b2 (0 : Fin 2)

/-- The second result: the logistic function of output unit 1 of every (vehicle, track) pair. -/
def probs (xt : (⟨2, ![8192, 256]⟩ : Shape).Idx → EReal) (w1t : (⟨2, ![256, 256]⟩ : Shape).Idx → EReal)
    (veh : (⟨2, ![64, 256]⟩ : Shape).Idx → EReal) (w1v : (⟨2, ![256, 256]⟩ : Shape).Idx → EReal)
    (b1 : (⟨2, ![1, 256]⟩ : Shape).Idx → EReal) (w2t : (⟨2, ![256, 2]⟩ : Shape).Idx → EReal)
    (b2 : (⟨2, ![1, 2]⟩ : Shape).Idx → EReal) : (⟨2, ![64, 8192]⟩ : Shape).Idx → EReal :=
  fun i => Ideal.logistic (logit (rowOf xt (i 1)) w1t (rowOf veh (i 0)) w1v b1 w2t b2 (1 : Fin 2))

end Cert.Spec

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.LibMidAxis.lean ====
import Idealize.ShloMosaic.Lib.Pipeline.Value
import Idealize.ShloMosaic.Lib.ValueIdx

/-!
# Re-layouts around a middle or leading unit axis of a rank-3 array, read at coordinates

Three re-layouts met when a matrix is spread along a new axis, each read at an index written by its coordinates:
* an `[a, b]` array cast to `[a, 1, b]` (a unit axis put between the two) reads, at `(i, u, j)`, the operand at `(i, j)`;
* a `[1, b, c]` array broadcast to `[a, b, c]` reads, at `(i, j, k)`, the operand at `(0, j, k)`;
* an `[a, 1, c]` array broadcast to `[a, b, c]` reads, at `(i, j, k)`, the operand at `(i, 0, k)`.
The cast is the row-major position computed on both sides; a broadcast keeps a coordinate on every axis but the unit one.
-/

namespace Idealize.ShloMosaic.ValueMidAxis

open Idealize.ShloMosaic Idealize.ShloMosaic.ValueIdx

variable {α : Type}

/-- `[a, b]` cast to `[a, 1, b]`, read at `(i, u, j)`: the operand at `(i, j)`, whatever the unit coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- `[1, b, c]` broadcast to `[a, b, c]`, read at `(i, j, k)`: the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[a, 1, c]` broadcast to `[a, b, c]`, read at `(i, j, k)`: the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Idealize.ShloMosaic.ValueMidAxis
-- ==== Proof.KernelPayload.lean ====
import proofs.«113287_j14654428414716_1_alg».proof.Proof.Gen.KernelIdeal.Skeleton
import proofs.«113287_j14654428414716_1_alg».proof.Proof.Spec
import proofs.«113287_j14654428414716_1_alg».proof.Proof.LibRank3Layout
import proofs.«113287_j14654428414716_1_alg».proof.Proof.LibMidAxis
import Idealize.ShloMosaic.Lib.ValueIdx
import Idealize.ShloMosaic.Lib.ValueLayout
import Idealize.ShloMosaic.Lib.Pipeline.Value
import Idealize.ShloMosaic.PureOps.Ideal.Laws

/-!
# What the kernel body computes for one (vehicle, track-in-tile, output unit)

The body holds a tile of 128 track rows, the 64 vehicle rows, the two halves of the first weight (transposed), the
two biases as one-row matrices and the second weight (transposed).  It forms the track projection `[128, 256]` and
the vehicle projection plus bias `[64, 256]`, spreads both over `[64, 128, 256]`, adds, clamps at zero, flattens to
`[8192, 256]` (row `v · 128 + s`), multiplies by the second weight, adds the second bias and folds back to
`[64, 128, 2]`.  Read at `(v, s, o)` this is the scorer's output unit `o` for vehicle row `v` and track row `s` of
the tile (`Cert.Spec.logit`): each re-layout is read at coordinates, each matrix product as a sum.
-/

noncomputable section

open scoped BigOperators

namespace Cert.KernelIdeal.Payload

open Cert.KernelIdeal Cert.KernelIdeal.Gen Idealize.ShloMosaic Idealize.ShloMosaic.ValueIdx
open Idealize.ShloMosaic.ValueLayout3 Idealize.ShloMosaic.ValueMidAxis

/-! ### The track tile times the track half of the first weight -/

theorem trackProj_lhs0 (j : S128x256.Idx) (q : dot_S128x256_S256x256_S128x256_1_0_0_1_n_n.contr.Idx) : (dot_S128x256_S256x256_S128x256_1_0_0_1_n_n.lhsIdx j q 0).val = (j 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem trackProj_lhs1 (j : S128x256.Idx) (q : dot_S128x256_S256x256_S128x256_1_0_0_1_n_n.contr.Idx) : (dot_S128x256_S256x256_S128x256_1_0_0_1_n_n.lhsIdx j q 1).val = (q ⟨0, by decide⟩).val :=
  dot_S128x256_S256x256_S128x256_1_0_0_1_n_n.lhsIdx_val_of_single rfl j q
theorem trackProj_rhs0 (j : S128x256.Idx) (q : dot_S128x256_S256x256_S128x256_1_0_0_1_n_n.contr.Idx) : (dot_S128x256_S256x256_S128x256_1_0_0_1_n_n.rhsIdx j q 0).val = (q ⟨0, by decide⟩).val :=
  dot_S128x256_S256x256_S128x256_1_0_0_1_n_n.rhsIdx_val_of_single rfl j q
theorem trackProj_rhs1 (j : S128x256.Idx) (q : dot_S128x256_S256x256_S128x256_1_0_0_1_n_n.contr.Idx) : (dot_S128x256_S256x256_S128x256_1_0_0_1_n_n.rhsIdx j q 1).val = (j 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The track tile times the track half of the first weight, into a zero accumulator, read at `(r, c)`: the sum over the 256 contracted positions of the left operand's
    row `r` times the right operand's column `c`. -/
theorem trackProj_apply (l : FVec Ideal S128x256 .f32) (r : FVec Ideal S256x256 .f32) (p : Fin 128) (c : Fin 256) :
    matmul dot_S128x256_S256x256_S128x256_1_0_0_1_n_n none l r (constant S128x256 .f32 0x00000000#32) (ix2 p c) = ∑ i : Fin 256, l (ix2 p i) * r (ix2 i c) := by
  show FloatOps.matmul dot_S128x256_S256x256_S128x256_1_0_0_1_n_n none l r (constant S128x256 .f32 0x00000000#32) (ix2 p c) = _
  rw [Ideal.matmul_constant_zero_apply, ← Equiv.sum_comp (ValueIdx.contrEquiv1 dot_S128x256_S256x256_S128x256_1_0_0_1_n_n 256 rfl rfl).symm]
  refine Finset.sum_congr rfl fun i _ => ?_
  have hk := ValueIdx.contrEquiv1_symm_val dot_S128x256_S256x256_S128x256_1_0_0_1_n_n 256 rfl rfl i
  have el : dot_S128x256_S256x256_S128x256_1_0_0_1_n_n.lhsIdx (ix2 p c) ((ValueIdx.contrEquiv1 dot_S128x256_S256x256_S128x256_1_0_0_1_n_n 256 rfl rfl).symm i) = ix2 p i := funext fun a => Fin.ext (by
    match a with
    | ⟨0, _⟩ => exact trackProj_lhs0 _ _
    | ⟨1, _⟩ => exact (trackProj_lhs1 _ _).trans hk)
  have er : dot_S128x256_S256x256_S128x256_1_0_0_1_n_n.rhsIdx (ix2 p c) ((ValueIdx.contrEquiv1 dot_S128x256_S256x256_S128x256_1_0_0_1_n_n 256 rfl rfl).symm i) = ix2 i c := funext fun a => Fin.ext (by
    match a with
    | ⟨0, _⟩ => exact (trackProj_rhs0 _ _).trans hk
    | ⟨1, _⟩ => exact trackProj_rhs1 _ _)
  rw [el, er]

/-! ### The vehicle rows times the vehicle half of the first weight -/

theorem vehProj_lhs0 (j : S64x256.Idx) (q : dot_S64x256_S256x256_S64x256_1_0_0_1_n_n.contr.Idx) : (dot_S64x256_S256x256_S64x256_1_0_0_1_n_n.lhsIdx j q 0).val = (j 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem vehProj_lhs1 (j : S64x256.Idx) (q : dot_S64x256_S256x256_S64x256_1_0_0_1_n_n.contr.Idx) : (dot_S64x256_S256x256_S64x256_1_0_0_1_n_n.lhsIdx j q 1).val = (q ⟨0, by decide⟩).val :=
  dot_S64x256_S256x256_S64x256_1_0_0_1_n_n.lhsIdx_val_of_single rfl j q
theorem vehProj_rhs0 (j : S64x256.Idx) (q : dot_S64x256_S256x256_S64x256_1_0_0_1_n_n.contr.Idx) : (dot_S64x256_S256x256_S64x256_1_0_0_1_n_n.rhsIdx j q 0).val = (q ⟨0, by decide⟩).val :=
  dot_S64x256_S256x256_S64x256_1_0_0_1_n_n.rhsIdx_val_of_single rfl j q
theorem vehProj_rhs1 (j : S64x256.Idx) (q : dot_S64x256_S256x256_S64x256_1_0_0_1_n_n.contr.Idx) : (dot_S64x256_S256x256_S64x256_1_0_0_1_n_n.rhsIdx j q 1).val = (j 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

/-- The vehicle rows times the vehicle half of the first weight, into a zero accumulator, read at `(r, c)`: the sum over the 256 contracted positions of the left operand's
    row `r` times the right operand's column `c`. -/
theorem vehProj_apply (l : FVec Ideal S64x256 .f32) (r : FVec Ideal S256x256 .f32) (p : Fin 64) (c : Fin 256) :
    matmul dot_S64x256_S256x256_S64x256_1_0_0_1_n_n none l r (constant S64x256 .f32 0x00000000#32) (ix2 p c) = ∑ i : Fin 256, l (ix2 p i) * r (ix2 i c) := by
  show FloatOps.matmul dot_S64x256_S256x256_S64x256_1_0_0_1_n_n none l r (constant S64x256 .f32 0x00000000#32) (ix2 p c) = _
  rw [Ideal.matmul_constant_zero_apply, ← Equiv.sum_comp (ValueIdx.contrEquiv1 dot_S64x256_S256x256_S64x256_1_0_0_1_n_n 256 rfl rfl).symm]
  refine Finset.sum_congr rfl fun i _ => ?_
  have hk := ValueIdx.contrEquiv1_symm_val dot_S64x256_S256x256_S64x256_1_0_0_1_n_n 256 rfl rfl i
  have el : dot_S64x256_S256x256_S64x256_1_0_0_1_n_n.lhsIdx (ix2 p c) ((ValueIdx.contrEquiv1 dot_S64x256_S256x256_S64x256_1_0_0_1_n_n 256 rfl rfl).symm i) = ix2 p i := funext fun a => Fin.ext (by
    match a with
    | ⟨0, _⟩ => exact vehProj_lhs0 _ _
    | ⟨1, _⟩ => exact (vehProj_lhs1 _ _).trans hk)
  have er : dot_S64x256_S256x256_S64x256_1_0_0_1_n_n.rhsIdx (ix2 p c) ((ValueIdx.contrEquiv1 dot_S64x256_S256x256_S64x256_1_0_0_1_n_n 256 rfl rfl).symm i) = ix2 i c := funext fun a => Fin.ext (by
    match a with
    | ⟨0, _⟩ => exact (vehProj_rhs0 _ _).trans hk
    | ⟨1, _⟩ => exact vehProj_rhs1 _ _)
  rw [el, er]

/-! ### The flattened hidden activations times the second weight -/

theorem outProj_lhs0 (j : S8192x2.Idx) (q : dot_S8192x256_S256x2_S8192x2_1_0_0_1_n_n.contr.Idx) : (dot_S8192x256_S256x2_S8192x2_1_0_0_1_n_n.lhsIdx j q 0).val = (j 0).val := by
  unfold DotDims.lhsIdx
  rw [dif_neg (show ¬(0 : Fin S8192x256.rank) ∈ dot_S8192x256_S256x2_S8192x2_1_0_0_1_n_n.lhsBatch by decide), dif_pos (show (0 : Fin S8192x256.rank) ∈ dot_S8192x256_S256x2_S8192x2_1_0_0_1_n_n.lhsNonContracting by decide)]
  rfl
theorem outProj_lhs1 (j : S8192x2.Idx) (q : dot_S8192x256_S256x2_S8192x2_1_0_0_1_n_n.contr.Idx) : (dot_S8192x256_S256x2_S8192x2_1_0_0_1_n_n.lhsIdx j q 1).val = (q ⟨0, by decide⟩).val :=
  dot_S8192x256_S256x2_S8192x2_1_0_0_1_n_n.lhsIdx_val_of_single rfl j q
theorem outProj_rhs0 (j : S8192x2.Idx) (q : dot_S8192x256_S256x2_S8192x2_1_0_0_1_n_n.contr.Idx) : (dot_S8192x256_S256x2_S8192x2_1_0_0_1_n_n.rhsIdx j q 0).val = (q ⟨0, by decide⟩).val :=
  dot_S8192x256_S256x2_S8192x2_1_0_0_1_n_n.rhsIdx_val_of_single rfl j q
theorem outProj_rhs1 (j : S8192x2.Idx) (q : dot_S8192x256_S256x2_S8192x2_1_0_0_1_n_n.contr.Idx) : (dot_S8192x256_S256x2_S8192x2_1_0_0_1_n_n.rhsIdx j q 1).val = (j 1).val := by
  unfold DotDims.rhsIdx
  rw [dif_neg (show ¬(1 : Fin S256x2.rank) ∈ dot_S8192x256_S256x2_S8192x2_1_0_0_1_n_n.rhsBatch by decide), dif_pos (show (1 : Fin S256x2.rank) ∈ dot_S8192x256_S256x2_S8192x2_1_0_0_1_n_n.rhsNonContracting by decide)]
  rfl

/-- The flattened hidden activations times the second weight, into a zero accumulator, read at `(r, c)`: the sum over the 256 contracted positions of the left operand's
    row `r` times the right operand's column `c`. -/
theorem outProj_apply (l : FVec Ideal S8192x256 .f32) (r : FVec Ideal S256x2 .f32) (p : Fin 8192) (c : Fin 2) :
    matmul dot_S8192x256_S256x2_S8192x2_1_0_0_1_n_n none l r (constant S8192x2 .f32 0x00000000#32) (ix2 p c) = ∑ i : Fin 256, l (ix2 p i) * r (ix2 i c) := by
  show FloatOps.matmul dot_S8192x256_S256x2_S8192x2_1_0_0_1_n_n none l r (constant S8192x2 .f32 0x00000000#32) (ix2 p c) = _
  rw [Ideal.matmul_constant_zero_apply, ← Equiv.sum_comp (ValueIdx.contrEquiv1 dot_S8192x256_S256x2_S8192x2_1_0_0_1_n_n 256 rfl rfl).symm]
  refine Finset.sum_congr rfl fun i _ => ?_
  have hk := ValueIdx.contrEquiv1_symm_val dot_S8192x256_S256x2_S8192x2_1_0_0_1_n_n 256 rfl rfl i
  have el : dot_S8192x256_S256x2_S8192x2_1_0_0_1_n_n.lhsIdx (ix2 p c) ((ValueIdx.contrEquiv1 dot_S8192x256_S256x2_S8192x2_1_0_0_1_n_n 256 rfl rfl).symm i) = ix2 p i := funext fun a => Fin.ext (by
    match a with
    | ⟨0, _⟩ => exact outProj_lhs0 _ _
    | ⟨1, _⟩ => exact (outProj_lhs1 _ _).trans hk)
  have er : dot_S8192x256_S256x2_S8192x2_1_0_0_1_n_n.rhsIdx (ix2 p c) ((ValueIdx.contrEquiv1 dot_S8192x256_S256x2_S8192x2_1_0_0_1_n_n 256 rfl rfl).symm i) = ix2 i c := funext fun a => Fin.ext (by
    match a with
    | ⟨0, _⟩ => exact (outProj_rhs0 _ _).trans hk
    | ⟨1, _⟩ => exact outProj_rhs1 _ _)
  rw [el, er]

/-! ### The body's value at one coordinate -/

/-- The body's `[64, 128, 2]` value at `(v, s, o)` is output unit `o` of the scorer on the tile's track row `s` and
    vehicle row `v`: the fold back to `[64, 128, 2]` reads row `v · 128 + s` of the `[8192, 2]` product, that row of the
    flattened activations is `(v, s, ·)` of the clamped sum, and each spread reads its operand on the axes it keeps. -/
theorem pay1_apply (P0 : Vec Ideal S128x256 .f32) (P1 : Vec Ideal S256x256 .f32) (P2 : Vec Ideal S64x256 .f32)
    (P3 : Vec Ideal S256x256 .f32) (P4 : Vec Ideal S1x256 .f32) (P5 : Vec Ideal S256x2 .f32) (P6 : Vec Ideal S1x2 .f32)
    (v : Fin 64) (s : Fin 128) (o : Fin 2) :
    k0_pay1 P0 P1 P2 P3 P4 P5 P6 (ix3 v s o)
      = Cert.Spec.logit (fun i => P0 (ix2 s i)) P1 (fun i => P2 (ix2 v i)) P3 P4 P5 P6 o := by
  have hlt : v.val * 128 + s.val < 8192 := by have := v.isLt; have := s.isLt; omega
  have hp : (⟨v.val * 128 + s.val, hlt⟩ : Fin 8192).val = v.val * 128 + s.val := rfl
  unfold k0_pay1
  refine (shapeCast_nc_abc_apply _ _ ⟨v.val * 128 + s.val, hlt⟩ v s o hp).trans ?_
  rw [addf_apply, outProj_apply, broadcastTo_1b_ab_apply]
  simp only [shapeCast_self]
  unfold Cert.Spec.logit
  congr 1
  refine Finset.sum_congr rfl fun k _ => ?_
  congr 1
  refine (shapeCast_abc_nc_apply _ _ _ v s k hp).trans ?_
  rw [maximumf_apply, addf_apply, broadcast_apply, broadcastTo_1bc_abc_apply, shapeCast_ab_1ab_apply,
    broadcastTo_a1c_abc_apply, shapeCast_ab_a1b_apply, addf_apply, trackProj_apply, vehProj_apply,
    broadcastTo_1b_ab_apply]
  rfl

end Cert.KernelIdeal.Payload

end
-- ==== Proof.KernelArray.lean ====
import proofs.«113287_j14654428414716_1_alg».proof.Proof.Gen.KernelIdeal.Value
import proofs.«113287_j14654428414716_1_alg».proof.Proof.KernelPayload
import proofs.«113287_j14654428414716_1_alg».proof.Proof.Spec
import Idealize.ShloMosaic.Lib.StableHlo.Run
import Idealize.ShloMosaic.Lib.ValueIdx
import Idealize.ShloMosaic.Lib.ValueLayout
import Idealize.ShloMosaic.Lib.Pipeline.Value

/-!
# The kernel's two result arrays as whole-array functions of the arrays the region reads

The region reads seven arrays: the track features (an argument), and six that the host operations before it wrote —
the two halves of the first weight, each cut out of the `[256, 512]` weight and transposed; the gathered vehicle rows;
the second weight transposed; and the two biases as one-row matrices (`V_w1t` … `V_veh`).  Grid point `t` takes track
rows `128 t … 128 t + 127` and all of the other six, and writes columns `128 t … 128 t + 127` of both `[64, 8192]`
results.  So what point `t` writes back is block `t` of `Cert.Spec.scores` / `Cert.Spec.probs` of those seven arrays
(`scores_flushed`, `probs_flushed`: the body's value at `(v, s, o)`, with row `s` of the tile being row `128 t + s` of
the track features), the 64 blocks tile the results (`covered`), and the results are those two functions.
-/

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The gathered vehicle rows, as a function of the vehicle table and the index pairs. -/
def vehicles (x0 : (⟨S512x256, .f32⟩ : BufTy).Contents (Elt Ideal)) (x2 : (⟨S64x2, .i32⟩ : BufTy).Contents (Elt Ideal)) : (⟨S64x256, .f32⟩ : BufTy).Contents (Elt Ideal) :=
  Host.gather gather_S512x256_S64x1_S64x256_1_0_n_n_0_1_1256 x0
    (broadcastInDim S64x1 ![0] bcast_S64_S64x1_0
      (select (cmpi .slt (shapeCast S64 (extractStridedSlice S64x1 ![0, 0] x2 slices_S64x2_S64x1_0_0) shapeCasts_S64x1_S64)
          (broadcastInDim S64 ![] bcast_S_S64 (constantI S_ 32 0#32)))
        (addi (shapeCast S64 (extractStridedSlice S64x1 ![0, 0] x2 slices_S64x2_S64x1_0_0) shapeCasts_S64x1_S64)
          (broadcastInDim S64 ![] bcast_S_S64 (constantI S_ 32 512#32)))
        (shapeCast S64 (extractStridedSlice S64x1 ![0, 0] x2 slices_S64x2_S64x1_0_0) shapeCasts_S64x1_S64)))

theorem V_w1t (c : Dev nD) : (V m c main_v10 : S256x256.Idx → EReal)
    = transpose S256x256 [1, 0] (extractStridedSlice S256x256 ![0, 0] (m ((c : Thread nD τ).loc main_arg3)) slices_S256x512_S256x256_0_0) transposes_S256x256_S256x256_1_0 := by
  dsimp only [V, hostOps0]; after_results

theorem V_w1v (c : Dev nD) : (V m c main_v12 : S256x256.Idx → EReal)
    = transpose S256x256 [1, 0] (extractStridedSlice S256x256 ![0, 256] (m ((c : Thread nD τ).loc main_arg3)) slices_S256x512_S256x256_0_256) transposes_S256x256_S256x256_1_0 := by
  dsimp only [V, hostOps0]; after_results

theorem V_w2t (c : Dev nD) : (V m c main_v13 : S256x2.Idx → EReal)
    = transpose S256x2 [1, 0] (m ((c : Thread nD τ).loc main_arg5)) transposes_S2x256_S256x2_1_0 := by
  dsimp only [V, hostOps0]; after_results

theorem V_b1 (c : Dev nD) : (V m c main_v14 : S1x256.Idx → EReal)
    = shapeCast S1x256 (m ((c : Thread nD τ).loc main_arg4)) shapeCasts_S256_S1x256 := by
  dsimp only [V, hostOps0]; after_results; rfl

theorem V_b2 (c : Dev nD) : (V m c main_v15 : S1x2.Idx → EReal)
    = shapeCast S1x2 (m ((c : Thread nD τ).loc main_arg6)) shapeCasts_S2_S1x2 := by
  dsimp only [V, hostOps0]; after_results; rfl

theorem V_veh (c : Dev nD) : (V m c main_v8 : S64x256.Idx → EReal)
    = vehicles (m ((c : Thread nD τ).loc main_arg0)) (m ((c : Thread nD τ).loc main_arg2)) := by
  dsimp only [V, hostOps0]; after_results; rfl

/-! ## The grid's index maps -/

theorem hz : (![0, 0] : Fin 2 → Nat) = fun _ => 0 := funext fun a => by fin_cases a <;> rfl

/-- The printed index maps, decided over the 64 grid points: the track window moves along its rows exactly as the two
    result windows move along their columns, every other window stays at block `(0, 0)`, and the result windows' column
    block stays in range. -/
theorem idx_facts : ∀ t : Fin cfg0.N,
    win0_0.index t (0 : Fin 2) = win0_7.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) ≤ 63
    ∧ win0_8.index t (0 : Fin 2) = 0 ∧ win0_8.index t (1 : Fin 2) = win0_7.index t (1 : Fin 2) :=
  (by decide +kernel : ∀ t : Fin grid0.N, _)

/-- Every column block of the results is some point's. -/
theorem idx_onto : ∀ q : Fin 64, ∃ t : Fin cfg0.N, win0_7.index t (1 : Fin 2) = q.val :=
  (by decide +kernel : ∀ q : Fin 64, ∃ t : Fin grid0.N, win0_7.index t (1 : Fin 2) = q.val)

/-! ## One block -/

/-- The body's value at `(y₀, y₁, o)` on blocks that are: rows `128 q …` of the track features, and the other six arrays
    whole — is the scorer's output unit `o` for vehicle `j₀ = y₀` and track `j₁ = 128 q + y₁`. -/
theorem logit_block (xt : S8192x256.Idx → EReal) (w1t w1v : S256x256.Idx → EReal) (veh : S64x256.Idx → EReal)
    (b1 : S1x256.Idx → EReal) (w2t : S256x2.Idx → EReal) (b2 : S1x2.Idx → EReal)
    (B0 : Vec Ideal S128x256 .f32) (B1 : Vec Ideal S256x256 .f32) (B2 : Vec Ideal S64x256 .f32)
    (B3 : Vec Ideal S256x256 .f32) (B4 : Vec Ideal S1x256 .f32) (B5 : Vec Ideal S256x2 .f32) (B6 : Vec Ideal S1x2 .f32)
    (q : ℕ)
    (h0 : ∀ (s : Fin 128) (i : Fin 256) (T : Fin 8192), T.val = q * 128 + s.val → B0 (ix2 s i) = xt (ix2 T i))
    (h1 : ∀ y, B1 y = w1t y) (h2 : ∀ y, B2 y = veh y) (h3 : ∀ y, B3 y = w1v y) (h4 : ∀ y, B4 y = b1 y)
    (h5 : ∀ y, B5 y = w2t y) (h6 : ∀ y, B6 y = b2 y)
    (y0 : Fin 64) (y1 : Fin 128) (o : Fin 2) (j0 : Fin 64) (j1 : Fin 8192) (hj0 : j0.val = y0.val)
    (hj1 : j1.val = q * 128 + y1.val) :
    k0_pay1 B0 B1 B2 B3 B4 B5 B6 (ix3 y0 y1 o)
      = Cert.Spec.logit (Cert.Spec.rowOf xt j1) w1t (Cert.Spec.rowOf veh j0) w1v b1 w2t b2 o := by
  obtain rfl : B1 = w1t := funext h1
  obtain rfl : B2 = veh := funext h2
  obtain rfl : B3 = w1v := funext h3
  obtain rfl : B4 = b1 := funext h4
  obtain rfl : B5 = w2t := funext h5
  obtain rfl : B6 = b2 := funext h6
  obtain rfl : y0 = j0 := Fin.ext hj0.symm
  rw [Cert.KernelIdeal.Payload.pay1_apply]
  have ea : (fun i => B0 (ix2 y1 i)) = Cert.Spec.rowOf xt j1 := funext fun i => h0 y1 i j1 hj1
  rw [ea]

/-! ## What a point writes back -/

/-- The seven blocks the body loads at point `t`: rows `128 q …` of the track features, `q` the point's column block of the
    results, and each of the other six arrays whole. -/
theorem blocks_at (c : Dev nD) (t : Fin cfg0.N) :
    (∀ (s : Fin 128) (i : Fin 256) (T : Fin 8192), T.val = win0_7.index t (1 : Fin 2) * 128 + s.val →
        View.ld (iblk m c 0 t) r0_0 (ix2 s i) = V m c main_arg1 (ix2 T i))
    ∧ (∀ y, View.ld (iblk m c 1 t) r0_1 y = V m c main_v10 y)
    ∧ (∀ y, View.ld (iblk m c 2 t) r0_2 y = V m c main_v8 y)
    ∧ (∀ y, View.ld (iblk m c 3 t) r0_1 y = V m c main_v12 y)
    ∧ (∀ y, View.ld (iblk m c 4 t) r0_3 y = V m c main_v14 y)
    ∧ (∀ y, View.ld (iblk m c 5 t) r0_4 y = V m c main_v13 y)
    ∧ (∀ y, View.ld (iblk m c 6 t) r0_5 y = V m c main_v15 y) := by
  obtain ⟨e00, e01, e10, e11, e20, e21, e30, e31, e40, e41, e50, e51, e60, e61, -, -, -, -⟩ := idx_facts t
  refine ⟨fun s i T hT => ?_, fun y => ?_, fun y => ?_, fun y => ?_, fun y => ?_, fun y => ?_, fun y => ?_⟩
  · rw [View.ld_unit_zero (S := S128x256) hz]
    show V m c main_arg1 (((cfg0.win 0).blk t).view.emb (ix2 s i)) = V m c main_arg1 (ix2 T i)
    congr 1; funext a; apply Fin.ext
    match a with
    | ⟨0, _⟩ => show win0_0.index t (0 : Fin 2) * 128 + 1 * s.val = T.val; omega
    | ⟨1, _⟩ => show win0_0.index t (1 : Fin 2) * 256 + 1 * i.val = i.val; omega
  · rw [View.ld_unit_zero (S := S256x256) hz]
    show V m c main_v10 (((cfg0.win 1).blk t).view.emb y) = V m c main_v10 y
    congr 1; funext a; apply Fin.ext
    match a with
    | ⟨0, _⟩ => show win0_1.index t (0 : Fin 2) * 256 + 1 * (y 0).val = (y 0).val; omega
    | ⟨1, _⟩ => show win0_1.index t (1 : Fin 2) * 256 + 1 * (y 1).val = (y 1).val; omega
  · rw [View.ld_unit_zero (S := S64x256) hz]
    show V m c main_v8 (((cfg0.win 2).blk t).view.emb y) = V m c main_v8 y
    congr 1; funext a; apply Fin.ext
    match a with
    | ⟨0, _⟩ => show win0_2.index t (0 : Fin 2) * 64 + 1 * (y 0).val = (y 0).val; omega
    | ⟨1, _⟩ => show win0_2.index t (1 : Fin 2) * 256 + 1 * (y 1).val = (y 1).val; omega
  · rw [View.ld_unit_zero (S := S256x256) hz]
    show V m c main_v12 (((cfg0.win 3).blk t).view.emb y) = V m c main_v12 y
    congr 1; funext a; apply Fin.ext
    match a with
    | ⟨0, _⟩ => show win0_3.index t (0 : Fin 2) * 256 + 1 * (y 0).val = (y 0).val; omega
    | ⟨1, _⟩ => show win0_3.index t (1 : Fin 2) * 256 + 1 * (y 1).val = (y 1).val; omega
  · rw [View.ld_unit_zero (S := S1x256) hz]
    show V m c main_v14 (((cfg0.win 4).blk t).view.emb y) = V m c main_v14 y
    congr 1; funext a; apply Fin.ext
    match a with
    | ⟨0, _⟩ => show win0_4.index t (0 : Fin 2) * 1 + 1 * (y 0).val = (y 0).val; omega
    | ⟨1, _⟩ => show win0_4.index t (1 : Fin 2) * 256 + 1 * (y 1).val = (y 1).val; omega
  · rw [View.ld_unit_zero (S := S256x2) hz]
    show V m c main_v13 (((cfg0.win 5).blk t).view.emb y) = V m c main_v13 y
    congr 1; funext a; apply Fin.ext
    match a with
    | ⟨0, _⟩ => show win0_5.index t (0 : Fin 2) * 256 + 1 * (y 0).val = (y 0).val; omega
    | ⟨1, _⟩ => show win0_5.index t (1 : Fin 2) * 2 + 1 * (y 1).val = (y 1).val; omega
  · rw [View.ld_unit_zero (S := S1x2) hz]
    show V m c main_v15 (((cfg0.win 6).blk t).view.emb y) = V m c main_v15 y
    congr 1; funext a; apply Fin.ext
    match a with
    | ⟨0, _⟩ => show win0_6.index t (0 : Fin 2) * 1 + 1 * (y 0).val = (y 0).val; omega
    | ⟨1, _⟩ => show win0_6.index t (1 : Fin 2) * 2 + 1 * (y 1).val = (y 1).val; omega

/-- What point `t` writes back to the first result is block `t` of `Cert.Spec.scores` of the seven arrays as the region finds them. -/
theorem scores_flushed (c : Dev nD) (t : Fin cfg0.N) :
    (dats m 0 c).flushed 7 t = ((cfg0.win 7).blk t).view.read (Elt Ideal)
      (Cert.Spec.scores (V m c main_arg1 : S8192x256.Idx → EReal) (V m c main_v10 : S256x256.Idx → EReal) (V m c main_v8 : S64x256.Idx → EReal) (V m c main_v12 : S256x256.Idx → EReal) (V m c main_v14 : S1x256.Idx → EReal) (V m c main_v13 : S256x2.Idx → EReal) (V m c main_v15 : S1x2.Idx → EReal)) := by
  rw [Value.flushed7]
  unfold out0_7
  obtain ⟨h0, h1, h2, h3, h4, h5, h6⟩ := blocks_at m c t
  obtain ⟨-, -, -, -, -, -, -, -, -, -, -, -, -, -, e70, -, e80, e81⟩ := idx_facts t
  funext y
  show View.canon ([⟨r0_6, k0_pay2 (View.ld (iblk m c 0 t) r0_0) (View.ld (iblk m c 1 t) r0_1) (View.ld (iblk m c 2 t) r0_2) (View.ld (iblk m c 3 t) r0_1) (View.ld (iblk m c 4 t) r0_3) (View.ld (iblk m c 5 t) r0_4) (View.ld (iblk m c 6 t) r0_5)⟩] : List (View.Piece (Elt Ideal) S64x128 .f32)) y
    = Cert.Spec.scores (V m c main_arg1 : S8192x256.Idx → EReal) (V m c main_v10 : S256x256.Idx → EReal) (V m c main_v8 : S64x256.Idx → EReal) (V m c main_v12 : S256x256.Idx → EReal) (V m c main_v14 : S1x256.Idx → EReal) (V m c main_v13 : S256x2.Idx → EReal) (V m c main_v15 : S1x2.Idx → EReal) (((cfg0.win 7).blk t).view.emb y)
  refine (Value.canon7_eq _ _ _ _ _ _ _ y).trans ?_
  have hix : Value.ix7_0 y = ix3 (y 0) (y 1) (0 : Fin 2) :=
    funext fun a => match a with | ⟨0, _⟩ => rfl | ⟨1, _⟩ => rfl | ⟨2, _⟩ => rfl
  show k0_pay1 (View.ld (iblk m c 0 t) r0_0) (View.ld (iblk m c 1 t) r0_1) (View.ld (iblk m c 2 t) r0_2) (View.ld (iblk m c 3 t) r0_1) (View.ld (iblk m c 4 t) r0_3) (View.ld (iblk m c 5 t) r0_4) (View.ld (iblk m c 6 t) r0_5) (Value.ix7_0 y) = _
  rw [hix]
  unfold Cert.Spec.scores
  show _ = Cert.Spec.logit _ _ _ _ _ _ _ _
  refine logit_block _ _ _ _ _ _ _ _ _ _ _ _ _ _ (win0_7.index t (1 : Fin 2)) h0 h1 h2 h3 h4 h5 h6 (y 0) (y 1) _ _ _ ?_ ?_
  · show win0_7.index t (0 : Fin 2) * 64 + 1 * (y 0).val = (y 0).val
    omega
  · show win0_7.index t (1 : Fin 2) * 128 + 1 * (y 1).val = win0_7.index t (1 : Fin 2) * 128 + (y 1).val
    omega

/-- What point `t` writes back to the second result is block `t` of `Cert.Spec.probs` of the seven arrays as the region finds them. -/
theorem probs_flushed (c : Dev nD) (t : Fin cfg0.N) :
    (dats m 0 c).flushed 8 t = ((cfg0.win 8).blk t).view.read (Elt Ideal)
      (Cert.Spec.probs (V m c main_arg1 : S8192x256.Idx → EReal) (V m c main_v10 : S256x256.Idx → EReal) (V m c main_v8 : S64x256.Idx → EReal) (V m c main_v12 : S256x256.Idx → EReal) (V m c main_v14 : S1x256.Idx → EReal) (V m c main_v13 : S256x2.Idx → EReal) (V m c main_v15 : S1x2.Idx → EReal)) := by
  rw [Value.flushed8]
  unfold out0_8
  obtain ⟨h0, h1, h2, h3, h4, h5, h6⟩ := blocks_at m c t
  obtain ⟨-, -, -, -, -, -, -, -, -, -, -, -, -, -, e70, -, e80, e81⟩ := idx_facts t
  funext y
  show View.canon ([⟨r0_6, k0_pay3 (View.ld (iblk m c 0 t) r0_0) (View.ld (iblk m c 1 t) r0_1) (View.ld (iblk m c 2 t) r0_2) (View.ld (iblk m c 3 t) r0_1) (View.ld (iblk m c 4 t) r0_3) (View.ld (iblk m c 5 t) r0_4) (View.ld (iblk m c 6 t) r0_5)⟩] : List (View.Piece (Elt Ideal) S64x128 .f32)) y
    = Cert.Spec.probs (V m c main_arg1 : S8192x256.Idx → EReal) (V m c main_v10 : S256x256.Idx → EReal) (V m c main_v8 : S64x256.Idx → EReal) (V m c main_v12 : S256x256.Idx → EReal) (V m c main_v14 : S1x256.Idx → EReal) (V m c main_v13 : S256x2.Idx → EReal) (V m c main_v15 : S1x2.Idx → EReal) (((cfg0.win 8).blk t).view.emb y)
  refine (Value.canon8_eq _ _ _ _ _ _ _ y).trans ?_
  have hix : Value.ix8_0 y = ix3 (y 0) (y 1) (1 : Fin 2) :=
    funext fun a => match a with | ⟨0, _⟩ => rfl | ⟨1, _⟩ => rfl | ⟨2, _⟩ => rfl
  show FloatOps.logistic (k0_pay1 (View.ld (iblk m c 0 t) r0_0) (View.ld (iblk m c 1 t) r0_1) (View.ld (iblk m c 2 t) r0_2) (View.ld (iblk m c 3 t) r0_1) (View.ld (iblk m c 4 t) r0_3) (View.ld (iblk m c 5 t) r0_4) (View.ld (iblk m c 6 t) r0_5) (Value.ix8_0 y)) = _
  rw [hix]
  unfold Cert.Spec.probs
  refine congrArg Ideal.logistic ?_
  refine logit_block _ _ _ _ _ _ _ _ _ _ _ _ _ _ (win0_7.index t (1 : Fin 2)) h0 h1 h2 h3 h4 h5 h6 (y 0) (y 1) _ _ _ ?_ ?_
  · show win0_8.index t (0 : Fin 2) * 64 + 1 * (y 0).val = (y 0).val
    omega
  · show win0_8.index t (1 : Fin 2) * 128 + 1 * (y 1).val = win0_7.index t (1 : Fin 2) * 128 + (y 1).val
    omega

/-! ## The blocks tile the results -/

/-- An index of the first result is in point `t`'s block iff each coordinate is in the block's range on its axis. -/
theorem mem_blk7 (t : Fin cfg0.N) (i : S64x8192.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v16_0).slice (win0_7.rect t)).set ↔ _
  rw [View.set_slice_whole, Rect.mem_set_unit]
  exact Iff.rfl

/-- Every index of the first result is in some point's block: column `T` is in the block of the point whose column block
    is `T / 128`. -/
theorem covered7 (i : S64x8192.Idx) :
    ∃ t : Fin cfg0.N, (cfg0.win 7).flush t = true ∧ i ∈ ((cfg0.win 7).blk t).view.set := by
  have hi0 : (i 0).val < 64 := (i 0).isLt
  have hi1 : (i 1).val < 8192 := (i 1).isLt
  obtain ⟨t, ht⟩ := idx_onto ⟨(i 1).val / 128, by omega⟩
  obtain ⟨-, -, -, -, -, -, -, -, -, -, -, -, -, -, e70, -, e80, e81⟩ := idx_facts t
  have q1 : win0_7.index t (1 : Fin 2) = (i 1).val / 128 := ht
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

/-- An index of the second result is in point `t`'s block iff each coordinate is in the block's range on its axis. -/
theorem mem_blk8 (t : Fin cfg0.N) (i : S64x8192.Idx) :
    i ∈ ((cfg0.win 8).blk t).view.set ↔ ∀ a : Fin 2, win0_8.index t a * S64x128.size a ≤ (i a).val ∧ (i a).val < win0_8.index t a * S64x128.size a + S64x128.size a := by
  show i ∈ ((View.whole main_v16_1).slice (win0_8.rect t)).set ↔ _
  rw [View.set_slice_whole, Rect.mem_set_unit]
  exact Iff.rfl

/-- Every index of the second result is in some point's block: column `T` is in the block of the point whose column block
    is `T / 128`. -/
theorem covered8 (i : S64x8192.Idx) :
    ∃ t : Fin cfg0.N, (cfg0.win 8).flush t = true ∧ i ∈ ((cfg0.win 8).blk t).view.set := by
  have hi0 : (i 0).val < 64 := (i 0).isLt
  have hi1 : (i 1).val < 8192 := (i 1).isLt
  obtain ⟨t, ht⟩ := idx_onto ⟨(i 1).val / 128, by omega⟩
  obtain ⟨-, -, -, -, -, -, -, -, -, -, -, -, -, -, e70, -, e80, e81⟩ := idx_facts t
  have q1 : win0_7.index t (1 : Fin 2) = (i 1).val / 128 := ht
  refine ⟨t, flush0_8 t, ?_⟩
  rw [mem_blk8]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 128 ≤ (i 1).val ∧ (i 1).val < win0_8.index t (1 : Fin 2) * 128 + 128; omega

/-! ## The six arrays the host operations write, as functions of the arguments -/

/-- The track half of the first weight, transposed: `(i, k) ↦ W1 (k, i)`. -/
def w1tOf (x3 : (⟨S256x512, .f32⟩ : BufTy).Contents (Elt Ideal)) : (⟨S256x256, .f32⟩ : BufTy).Contents (Elt Ideal) :=
  transpose S256x256 [1, 0] (extractStridedSlice S256x256 ![0, 0] x3 slices_S256x512_S256x256_0_0) transposes_S256x256_S256x256_1_0
/-- The vehicle half of the first weight, transposed: `(i, k) ↦ W1 (k, 256 + i)`. -/
def w1vOf (x3 : (⟨S256x512, .f32⟩ : BufTy).Contents (Elt Ideal)) : (⟨S256x256, .f32⟩ : BufTy).Contents (Elt Ideal) :=
  transpose S256x256 [1, 0] (extractStridedSlice S256x256 ![0, 256] x3 slices_S256x512_S256x256_0_256) transposes_S256x256_S256x256_1_0
/-- The second weight, transposed: `(k, o) ↦ W2 (o, k)`. -/
def w2tOf (x5 : (⟨S2x256, .f32⟩ : BufTy).Contents (Elt Ideal)) : (⟨S256x2, .f32⟩ : BufTy).Contents (Elt Ideal) :=
  transpose S256x2 [1, 0] x5 transposes_S2x256_S256x2_1_0
/-- The first bias as a one-row matrix. -/
def b1Of (x4 : (⟨S256, .f32⟩ : BufTy).Contents (Elt Ideal)) : (⟨S1x256, .f32⟩ : BufTy).Contents (Elt Ideal) := shapeCast S1x256 x4 shapeCasts_S256_S1x256
/-- The second bias as a one-row matrix. -/
def b2Of (x6 : (⟨S2, .f32⟩ : BufTy).Contents (Elt Ideal)) : (⟨S1x2, .f32⟩ : BufTy).Contents (Elt Ideal) := shapeCast S1x2 x6 shapeCasts_S2_S1x2

theorem w1tOf_apply (x3 : (⟨S256x512, .f32⟩ : BufTy).Contents (Elt Ideal)) (i k : Fin 256) :
    w1tOf x3 (ix2 i k) = x3 (ix2 k (Cert.Spec.lo i)) := by
  unfold w1tOf
  rw [transpose_ix2_apply]
  exact slice2_axis1_apply 0 x3 _ k i (Cert.Spec.lo i) (by rw [Cert.Spec.lo_val, Nat.zero_add])

theorem w1vOf_apply (x3 : (⟨S256x512, .f32⟩ : BufTy).Contents (Elt Ideal)) (i k : Fin 256) :
    w1vOf x3 (ix2 i k) = x3 (ix2 k (Cert.Spec.hi i)) := by
  unfold w1vOf
  rw [transpose_ix2_apply]
  exact slice2_axis1_apply 256 x3 _ k i (Cert.Spec.hi i) (Cert.Spec.hi_val i)

theorem w2tOf_apply (x5 : (⟨S2x256, .f32⟩ : BufTy).Contents (Elt Ideal)) (k : Fin 256) (o : Fin 2) :
    w2tOf x5 (ix2 k o) = x5 (ix2 o k) := by
  unfold w2tOf
  rw [transpose_ix2_apply]

theorem b1Of_apply (x4 : (⟨S256, .f32⟩ : BufTy).Contents (Elt Ideal)) (u : Fin 1) (k : Fin 256) : b1Of x4 (ix2 u k) = x4 (ix1 k) := by
  unfold b1Of
  rw [shapeCast_a_1a_apply]

theorem b2Of_apply (x6 : (⟨S2, .f32⟩ : BufTy).Contents (Elt Ideal)) (u : Fin 1) (o : Fin 2) : b2Of x6 (ix2 u o) = x6 (ix1 o) := by
  unfold b2Of
  rw [shapeCast_a_1a_apply]

/-! ## The two results, whole -/

/-- The first result as a function of the seven argument arrays. -/
def scoresOf (x0 : (⟨S512x256, .f32⟩ : BufTy).Contents (Elt Ideal)) (x1 : (⟨S8192x256, .f32⟩ : BufTy).Contents (Elt Ideal)) (x2 : (⟨S64x2, .i32⟩ : BufTy).Contents (Elt Ideal)) (x3 : (⟨S256x512, .f32⟩ : BufTy).Contents (Elt Ideal)) (x4 : (⟨S256, .f32⟩ : BufTy).Contents (Elt Ideal)) (x5 : (⟨S2x256, .f32⟩ : BufTy).Contents (Elt Ideal)) (x6 : (⟨S2, .f32⟩ : BufTy).Contents (Elt Ideal)) : S64x8192.Idx → EReal :=
  Cert.Spec.scores x1 (w1tOf x3) (vehicles x0 x2) (w1vOf x3) (b1Of x4) (w2tOf x5) (b2Of x6)
/-- The second result as a function of the seven argument arrays. -/
def probsOf (x0 : (⟨S512x256, .f32⟩ : BufTy).Contents (Elt Ideal)) (x1 : (⟨S8192x256, .f32⟩ : BufTy).Contents (Elt Ideal)) (x2 : (⟨S64x2, .i32⟩ : BufTy).Contents (Elt Ideal)) (x3 : (⟨S256x512, .f32⟩ : BufTy).Contents (Elt Ideal)) (x4 : (⟨S256, .f32⟩ : BufTy).Contents (Elt Ideal)) (x5 : (⟨S2x256, .f32⟩ : BufTy).Contents (Elt Ideal)) (x6 : (⟨S2, .f32⟩ : BufTy).Contents (Elt Ideal)) : S64x8192.Idx → EReal :=
  Cert.Spec.probs x1 (w1tOf x3) (vehicles x0 x2) (w1vOf x3) (b1Of x4) (w2tOf x5) (b2Of x6)

/-- After the run the first result array is `scoresOf` of the arguments: every point wrote its block of it, and the
    blocks tile the array. -/
theorem scores_final (c : Dev nD) : (dats m 0 c).arrAt 7 cfg0.N = scoresOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [(dats m 0 c).arrAt_eq_of_cover 7 _ (fun t _ => scores_flushed m c t) covered7]
  unfold scoresOf w1tOf w1vOf w2tOf b1Of b2Of
  rw [← V_w1t m c, ← V_w1v m c, ← V_w2t m c, ← V_b1 m c, ← V_b2 m c, ← V_veh m c, ← V_main_arg1 m c]

/-- After the run the second result array is `probsOf` of the arguments. -/
theorem probs_final (c : Dev nD) : (dats m 0 c).arrAt 8 cfg0.N = probsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [(dats m 0 c).arrAt_eq_of_cover 8 _ (fun t _ => probs_flushed m c t) covered8]
  unfold probsOf w1tOf w1vOf w2tOf b1Of b2Of
  rw [← V_w1t m c, ← V_w1v m c, ← V_w2t m c, ← V_b1 m c, ← V_b2 m c, ← V_veh m c, ← V_main_arg1 m c]

/-! ## The run -/

/-- Every weakly fair execution of the idealized kernel terminates with the two results at `scoresOf` and `probsOf` of
    the arguments, the arguments unchanged. -/
theorem run : θ_run defs (onTc (τ := τ) (main (F := Ideal))) ⟨m, fun _ => 0, ρ⟩ fun r => ∀ c : Dev nD,
      r.2.mem ((c : Thread nD τ).loc main_v16_0) = scoresOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v16_1) = probsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (scores_final m c), (h c).2.1.trans (probs_final m c), (h c).2.2⟩)
    (Value.run_blocks m ρ)

end Cert.KernelIdeal.Whole

end
-- ==== Proof.RefValue.lean ====
import proofs.«113287_j14654428414716_1_alg».proof.Proof.Gen.ReferenceIdeal.Read
import proofs.«113287_j14654428414716_1_alg».proof.Proof.KernelArray
import proofs.«113287_j14654428414716_1_alg».proof.Proof.Spec
import Idealize.ShloMosaic.Lib.ValueIdx
import Idealize.ShloMosaic.Lib.ValueLayout
import Idealize.ShloMosaic.Lib.IdealHost
import Idealize.ShloMosaic.Lib.Pipeline.Value

/-!
# The reference's two results are the kernel's two functions of the arguments

The reference spreads the track rows and the gathered vehicle rows over `[64, 8192, 256]`, joins them along the last axis
into `[64, 8192, 512]`, contracts with the `[256, 512]` weight, adds the bias, clamps at zero, contracts with the second
weight and adds the second bias.  At `(v, T, k)` the first contraction is a sum over 512 positions of the joined row; its
first 256 terms are the track row against the weight's first 256 columns and its last 256 the vehicle row against the
last 256 columns (`joined_lo`, `joined_hi`, `Cert.Spec.sum_halves`), and `(A + B) + b = A + (B + b)`.  That is the hidden
unit as the kernel arranges it (`hidden_ref`); the output unit follows (`logit_ref`), and the two results are output unit 0
and `1 / (1 + exp (−·))` of output unit 1 — the logistic function (`scores_eq`, `probs_eq`).
The gathered vehicle rows are the same term in both programs (`vehicles_eq`).
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference gathers the vehicle rows by the same operations as the kernel's host side. -/
theorem vehicles_eq (x0 : (⟨S512x256, .f32⟩ : BufTy).Contents (Elt Ideal)) (x2 : (⟨S64x2, .i32⟩ : BufTy).Contents (Elt Ideal)) :
    val_main_v8 (F := Ideal) x0 x2 = Cert.KernelIdeal.Whole.vehicles x0 x2 := rfl

/-- The joined row at a position of its first half is the track row there. -/
theorem joined_lo (x0 : (⟨S512x256, .f32⟩ : BufTy).Contents (Elt Ideal)) (x1 : (⟨S8192x256, .f32⟩ : BufTy).Contents (Elt Ideal)) (x2 : (⟨S64x2, .i32⟩ : BufTy).Contents (Elt Ideal))
    (v : Fin 64) (T : Fin 8192) (i : Fin 256) :
    val_main_v13 (F := Ideal) x0 x1 x2 (ix3 v T (Cert.Spec.lo i)) = x1 (ix2 T i) := by
  unfold val_main_v13
  refine (concatenate_pair_apply_left (t := S64x8192x512) (s₁ := S64x8192x256) (s₂ := S64x8192x256) 2 _ _ _ (ix3 v T (Cert.Spec.lo i)) rfl (ix3 v T i) (fun b => ?_)).trans ?_
  · match b with | ⟨0, _⟩ => rfl | ⟨1, _⟩ => rfl | ⟨2, _⟩ => rfl
  · rw [val_main_v10_apply, val_main_v9_apply]
    exact congrArg x1 (funext fun a => match a with | ⟨0, _⟩ => rfl | ⟨1, _⟩ => rfl)

/-- The joined row at a position of its second half is the vehicle row there. -/
theorem joined_hi (x0 : (⟨S512x256, .f32⟩ : BufTy).Contents (Elt Ideal)) (x1 : (⟨S8192x256, .f32⟩ : BufTy).Contents (Elt Ideal)) (x2 : (⟨S64x2, .i32⟩ : BufTy).Contents (Elt Ideal))
    (v : Fin 64) (T : Fin 8192) (i : Fin 256) :
    val_main_v13 (F := Ideal) x0 x1 x2 (ix3 v T (Cert.Spec.hi i)) = Cert.KernelIdeal.Whole.vehicles x0 x2 (ix2 v i) := by
  unfold val_main_v13
  refine (concatenate_pair_apply_right (t := S64x8192x512) (s₁ := S64x8192x256) (s₂ := S64x8192x256) 2 _ _ _ (ix3 v T (Cert.Spec.hi i)) rfl rfl (ix3 v T i) (fun b hb => ?_) ?_).trans ?_
  · match b with
    | ⟨0, _⟩ => rfl
    | ⟨1, _⟩ => rfl
    | ⟨2, _⟩ => exact absurd rfl hb
  · show i.val + 256 = 256 + i.val
    omega
  · rw [val_main_v12_apply, val_main_v11_apply, vehicles_eq]
    exact congrArg (Cert.KernelIdeal.Whole.vehicles x0 x2) (funext fun a => match a with | ⟨0, _⟩ => rfl | ⟨1, _⟩ => rfl)

/-- The reference's clamped first layer at `(v, T, k)` is the hidden unit `k` of the pair. -/
theorem hidden_ref (x0 : (⟨S512x256, .f32⟩ : BufTy).Contents (Elt Ideal)) (x1 : (⟨S8192x256, .f32⟩ : BufTy).Contents (Elt Ideal)) (x2 : (⟨S64x2, .i32⟩ : BufTy).Contents (Elt Ideal)) (x3 : (⟨S256x512, .f32⟩ : BufTy).Contents (Elt Ideal)) (x4 : (⟨S256, .f32⟩ : BufTy).Contents (Elt Ideal)) (v : Fin 64) (T : Fin 8192) (k : Fin 256) :
    val_main_v18 (F := Ideal) x0 x1 x2 x3 x4 (ix3 v T k) = Cert.Spec.hidden (Cert.Spec.rowOf x1 T) (Cert.KernelIdeal.Whole.w1tOf x3) (Cert.Spec.rowOf (Cert.KernelIdeal.Whole.vehicles x0 x2) v) (Cert.KernelIdeal.Whole.w1vOf x3) (Cert.KernelIdeal.Whole.b1Of x4) k := by
  rw [val_main_v18_apply, val_main_v17_apply, val_main_v14_apply, val_main_call0_v0_apply, val_main_call0_cst_apply,
    val_main_v16_apply, val_main_v15_apply]
  unfold Cert.Spec.hidden
  show max ((∑ q : Fin 512, val_main_v13 (F := Ideal) x0 x1 x2 (lidx_main_v14 (ix3 v T k) q) * x3 (ridx_main_v14 (ix3 v T k) q))
      + x4 (idx_main_v15 (idx_main_v16 (ix3 v T k)))) Cert.Spec.zeroF = _
  refine congrArg (max · Cert.Spec.zeroF) ?_
  rw [Cert.Spec.sum_halves, add_assoc]
  refine congrArg₂ (· + ·) ?_ (congrArg₂ (· + ·) ?_ ?_)
  · refine Finset.sum_congr rfl fun i _ => ?_
    have el : lidx_main_v14 (ix3 v T k) (Cert.Spec.lo i) = ix3 v T (Cert.Spec.lo i) :=
      funext fun a => match a with | ⟨0, _⟩ => rfl | ⟨1, _⟩ => rfl | ⟨2, _⟩ => rfl
    have er : ridx_main_v14 (ix3 v T k) (Cert.Spec.lo i) = ix2 k (Cert.Spec.lo i) :=
      funext fun a => match a with | ⟨0, _⟩ => rfl | ⟨1, _⟩ => rfl
    rw [el, er, joined_lo, Cert.KernelIdeal.Whole.w1tOf_apply]
  · refine Finset.sum_congr rfl fun i _ => ?_
    have el : lidx_main_v14 (ix3 v T k) (Cert.Spec.hi i) = ix3 v T (Cert.Spec.hi i) :=
      funext fun a => match a with | ⟨0, _⟩ => rfl | ⟨1, _⟩ => rfl | ⟨2, _⟩ => rfl
    have er : ridx_main_v14 (ix3 v T k) (Cert.Spec.hi i) = ix2 k (Cert.Spec.hi i) :=
      funext fun a => match a with | ⟨0, _⟩ => rfl | ⟨1, _⟩ => rfl
    rw [el, er, joined_hi, Cert.KernelIdeal.Whole.w1vOf_apply]
  · rw [Cert.KernelIdeal.Whole.b1Of_apply]
    exact congrArg x4 (funext fun a => match a with | ⟨0, _⟩ => rfl)

/-- The reference's second layer at `(v, T, o)` is output unit `o` of the pair. -/
theorem logit_ref (x0 : (⟨S512x256, .f32⟩ : BufTy).Contents (Elt Ideal)) (x1 : (⟨S8192x256, .f32⟩ : BufTy).Contents (Elt Ideal)) (x2 : (⟨S64x2, .i32⟩ : BufTy).Contents (Elt Ideal)) (x3 : (⟨S256x512, .f32⟩ : BufTy).Contents (Elt Ideal)) (x4 : (⟨S256, .f32⟩ : BufTy).Contents (Elt Ideal)) (x5 : (⟨S2x256, .f32⟩ : BufTy).Contents (Elt Ideal)) (x6 : (⟨S2, .f32⟩ : BufTy).Contents (Elt Ideal)) (v : Fin 64) (T : Fin 8192) (o : Fin 2) :
    val_main_v22 (F := Ideal) x0 x1 x2 x3 x4 x5 x6 (ix3 v T o)
      = Cert.Spec.logit (Cert.Spec.rowOf x1 T) (Cert.KernelIdeal.Whole.w1tOf x3) (Cert.Spec.rowOf (Cert.KernelIdeal.Whole.vehicles x0 x2) v) (Cert.KernelIdeal.Whole.w1vOf x3) (Cert.KernelIdeal.Whole.b1Of x4) (Cert.KernelIdeal.Whole.w2tOf x5) (Cert.KernelIdeal.Whole.b2Of x6) o := by
  rw [val_main_v22_apply, val_main_v19_apply, val_main_v21_apply, val_main_v20_apply]
  unfold Cert.Spec.logit
  refine congrArg₂ (· + ·) ?_ ?_
  · refine Finset.sum_congr rfl fun k _ => ?_
    have el : lidx_main_v19 (ix3 v T o) k = ix3 v T k :=
      funext fun a => match a with | ⟨0, _⟩ => rfl | ⟨1, _⟩ => rfl | ⟨2, _⟩ => rfl
    have er : ridx_main_v19 (ix3 v T o) k = ix2 o k :=
      funext fun a => match a with | ⟨0, _⟩ => rfl | ⟨1, _⟩ => rfl
    rw [el, er, hidden_ref, Cert.KernelIdeal.Whole.w2tOf_apply]
  · rw [Cert.KernelIdeal.Whole.b2Of_apply]
    exact congrArg x6 (funext fun a => match a with | ⟨0, _⟩ => rfl)

/-- Where the reference's `[64, 8192]` results read the `[64, 8192, 2]` second layer: `(v, T)` of the slice at offset
    `o` on the last axis, folded, is `(v, T, o)`. -/
theorem fold0 (v : Fin 64) (T : Fin 8192) : idx_main_v23 (idx_main_v24 (ix2 v T)) = ix3 v T (0 : Fin 2) := by
  have hv := v.isLt; have hT := T.isLt
  funext a; apply Fin.ext
  match a with
  | ⟨0, _⟩ => show (v.val * 8192 + T.val) / 8192 = v.val; omega
  | ⟨1, _⟩ => show (v.val * 8192 + T.val) / 1 % 8192 = T.val; omega
  | ⟨2, _⟩ => rfl
theorem fold1 (v : Fin 64) (T : Fin 8192) : idx_main_v25 (idx_main_v26 (ix2 v T)) = ix3 v T (1 : Fin 2) := by
  have hv := v.isLt; have hT := T.isLt
  funext a; apply Fin.ext
  match a with
  | ⟨0, _⟩ => show (v.val * 8192 + T.val) / 8192 = v.val; omega
  | ⟨1, _⟩ => show (v.val * 8192 + T.val) / 1 % 8192 = T.val; omega
  | ⟨2, _⟩ => rfl

/-- The reference's first result is the kernel's. -/
theorem scores_eq (x0 : (⟨S512x256, .f32⟩ : BufTy).Contents (Elt Ideal)) (x1 : (⟨S8192x256, .f32⟩ : BufTy).Contents (Elt Ideal)) (x2 : (⟨S64x2, .i32⟩ : BufTy).Contents (Elt Ideal)) (x3 : (⟨S256x512, .f32⟩ : BufTy).Contents (Elt Ideal)) (x4 : (⟨S256, .f32⟩ : BufTy).Contents (Elt Ideal)) (x5 : (⟨S2x256, .f32⟩ : BufTy).Contents (Elt Ideal)) (x6 : (⟨S2, .f32⟩ : BufTy).Contents (Elt Ideal)) :
    val_main_v24 (F := Ideal) x0 x1 x2 x3 x4 x5 x6 = Cert.KernelIdeal.Whole.scoresOf x0 x1 x2 x3 x4 x5 x6 := by
  funext j
  obtain ⟨v, T, rfl⟩ : ∃ (v : Fin 64) (T : Fin 8192), j = ix2 v T := ⟨j 0, j 1, eq_ix2 j⟩
  rw [val_main_v24_apply, val_main_v23_apply, fold0, logit_ref]
  rfl

/-- The reference's second result, `1 / (1 + exp (−z))` of output unit 1, is the kernel's logistic function of it. -/
theorem probs_eq (x0 : (⟨S512x256, .f32⟩ : BufTy).Contents (Elt Ideal)) (x1 : (⟨S8192x256, .f32⟩ : BufTy).Contents (Elt Ideal)) (x2 : (⟨S64x2, .i32⟩ : BufTy).Contents (Elt Ideal)) (x3 : (⟨S256x512, .f32⟩ : BufTy).Contents (Elt Ideal)) (x4 : (⟨S256, .f32⟩ : BufTy).Contents (Elt Ideal)) (x5 : (⟨S2x256, .f32⟩ : BufTy).Contents (Elt Ideal)) (x6 : (⟨S2, .f32⟩ : BufTy).Contents (Elt Ideal)) :
    val_main_v32 (F := Ideal) x0 x1 x2 x3 x4 x5 x6 = Cert.KernelIdeal.Whole.probsOf x0 x1 x2 x3 x4 x5 x6 := by
  funext j
  obtain ⟨v, T, rfl⟩ : ∃ (v : Fin 64) (T : Fin 8192), j = ix2 v T := ⟨j 0, j 1, eq_ix2 j⟩
  rw [val_main_v32_apply, val_main_v31_apply, val_main_cst_1_apply, val_main_v30_apply, val_main_v29_apply,
    val_main_cst_apply, val_main_v28_apply, val_main_v27_apply, val_main_v26_apply, val_main_v25_apply, fold1, logit_ref]
  have one : (FloatOps.ofBits .f32 0x3F800000#32 : Ideal .f32) = 1 := Ideal.ofBits_one_f32
  rw [one]
  rfl

end Cert.ReferenceIdeal.RefValue

end
-- ==== Proof.lean ====
/- Equivalence, over the extended reals, of a fused pair-scoring kernel and its reference.

   For every one of 64 vehicles (rows of a table gathered by an index column) and every one of 8192 tracks, a two-layer
   perceptron scores the concatenation of the track's and the vehicle's 256 features: 512 → 256 (relu) → 2.  The results
   are output unit 0 and the logistic function of output unit 1, both `[64, 8192]`.

   The reference builds the `[64, 8192, 512]` array of concatenated pairs and contracts it with the `[256, 512]` weight.
   The kernel never builds it: a linear layer on a concatenation is the sum of the layer's two halves on the two parts, so per
   tile of 128 tracks it multiplies the tile by the weight's first 256 columns, the vehicle rows by its last 256 columns,
   adds the bias to the vehicle part, and spreads the two over (vehicle, track) before the relu.  On the extended reals the two
   arrangements agree because a 512-term sum is its first 256 terms plus its last 256 and `(A + B) + b = A + (B + b)` —
   laws of a commutative monoid, which hold at the infinities too, so the finiteness of the inputs is never used.  The second
   layer is the same sum on both sides, and the reference's `1 / (1 + exp (−z))` is the logistic function by definition.

   Modules: Proof/Spec.lean (the scorer as a function of the arrays read, and the law), Proof/KernelPayload.lean (the kernel
   body's value at one coordinate), Proof/KernelArray.lean (from the 64 tiles to the two whole results; the kernel's run),
   Proof/RefValue.lean (the reference's results are the same functions), over three small modules of layout and index lemmas.
   The kernel's idealization rewrote nothing, so `preserves` has nothing to state. -/
import proofs.«113287_j14654428414716_1_alg».proof.Defs
import proofs.«113287_j14654428414716_1_alg».proof.Proof.Gen.Kernel
import proofs.«113287_j14654428414716_1_alg».proof.Proof.Gen.Kernel.Skeleton
import proofs.«113287_j14654428414716_1_alg».proof.Proof.Gen.Kernel.Launch
import proofs.«113287_j14654428414716_1_alg».proof.Proof.Gen.Kernel.Points
import proofs.«113287_j14654428414716_1_alg».proof.Proof.Gen.Kernel.Frame
import proofs.«113287_j14654428414716_1_alg».proof.Proof.Gen.KernelIdeal
import proofs.«113287_j14654428414716_1_alg».proof.Proof.Gen.KernelIdeal.Skeleton
import proofs.«113287_j14654428414716_1_alg».proof.Proof.Gen.KernelIdeal.Launch
import proofs.«113287_j14654428414716_1_alg».proof.Proof.Gen.KernelIdeal.Points
import proofs.«113287_j14654428414716_1_alg».proof.Proof.Gen.KernelIdeal.Frame
import proofs.«113287_j14654428414716_1_alg».proof.Proof.Gen.ReferenceIdeal
import proofs.«113287_j14654428414716_1_alg».proof.Proof.Gen.KernelIdeal.Value
import proofs.«113287_j14654428414716_1_alg».proof.Proof.Gen.ReferenceIdeal.Run
import proofs.«113287_j14654428414716_1_alg».proof.Proof.Gen.ReferenceIdeal.Read
import proofs.«113287_j14654428414716_1_alg».proof.Proof.Gen.Pre_finite_inputs
import Idealize.ShloMosaic.Adequacy
import Idealize.ShloMosaic.Init
import proofs.«113287_j14654428414716_1_alg».proof.Proof.KernelArray
import proofs.«113287_j14654428414716_1_alg».proof.Proof.RefValue

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments both programs end with the two results at
    `Cert.KernelIdeal.Whole.scoresOf` and `probsOf` of those arguments: the kernel by its run read tile by tile, the
    reference by its run read operation by operation. -/
theorem algebraic : Cert.algebraic_KernelIdeal_ReferenceIdeal := by
  intro m ρ m' ρ' _ hagree
  refine ⟨fun c => Cert.KernelIdeal.Whole.scoresOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Whole.probsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v24_eq, Cert.ReferenceIdeal.RefValue.scores_eq, a0, a1, a2, a3, a4, a5, a6]
  · obtain ⟨a0, a1, a2, a3, a4, a5, a6⟩ := hagree c
    rw [Cert.ReferenceIdeal.Read.val_main_v32_eq, Cert.ReferenceIdeal.RefValue.probs_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
